-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2x2x256 : Shape := ⟨4, ![131072, 2, 2, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S131072x2x2x256 : S_.BroadcastsInDim S131072x2x2x256 (![] : Fin 0 → Fin S131072x2x2x256.rank)
  reducesTo_S131072x2x2x256_S_d0_1_2_3 : S131072x2x2x256.ReducesTo [0, 1, 2, 3] S_
  h_S_ : 0 < S_.numel
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S131072x2x2x256 .f32) (main_arg1 : FVec F S256x768 .f32) (main_arg2 : FVec F S768 .f32) (main_arg3 : FVec F S256x256 .f32) (main_arg4 : FVec F S256 .f32) (main_arg5 : FVec F S256 .f32) (main_arg6 : FVec F S256 .f32) : IVec S_ 1 :=
  let main_v0 : FVec F S131072x2x2x256 .f32 := Host.absf main_arg0
  let main_cst : FVec F S_ .f32 := constant S_ .f32 0x7F800000#32
  let main_v1 : FVec F S131072x2x2x256 .f32 := broadcastInDim S131072x2x2x256 ![] bcast_S_S131072x2x2x256 main_cst
  let main_v2 : IVec S131072x2x2x256 1 := cmpf .olt main_v0 main_v1
  let main_c : IVec S_ 1 := constantI S_ 1 1#1
  let main_v3 : IVec S_ 1 := (fun x v => Host.reduce IntOp.andi x v reducesTo_S131072x2x2x256_S_d0_1_2_3 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S131072x2x2x256 : Shape := ⟨4, ![131072, 2, 2, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S131072x1024 : Shape := ⟨2, ![131072, 1024]⟩
abbrev S131072x512 : Shape := ⟨2, ![131072, 512]⟩
abbrev S1024x1024 : Shape := ⟨2, ![1024, 1024]⟩
abbrev S1024x512 : Shape := ⟨2, ![1024, 512]⟩
abbrev S1024x256 : Shape := ⟨2, ![1024, 256]⟩
abbrev S1024x768 : Shape := ⟨2, ![1024, 768]⟩
abbrev S1x768 : Shape := ⟨2, ![1, 768]⟩
abbrev S1x256 : Shape := ⟨2, ![1, 256]⟩
abbrev S1024 : Shape := ⟨1, ![1024]⟩
abbrev S1024x1 : Shape := ⟨2, ![1024, 1]⟩
abbrev S131072x2x256 : Shape := ⟨3, ![131072, 2, 256]⟩

abbrev nBuf : Space → Nat
  | .hbm => 12
  | .vmem => 10
  | .smem => 0
  | _ => 0

abbrev bufTy : (tb : Table) → Fin (tcTables nBuf tb) → BufTy
  | .hbm, ⟨0, _⟩ => ⟨S131072x2x2x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x768, .bf16⟩
  | .hbm, ⟨8, _⟩ => ⟨S256x256, .bf16⟩
  | .hbm, ⟨9, _⟩ => ⟨S131072x1024, .f32⟩
  | .hbm, ⟨10, _⟩ => ⟨S131072x512, .f32⟩
  | .hbm, ⟨11, _⟩ => ⟨S131072x2x256, .f32⟩
  | .local _ .vmem, ⟨0, _⟩ => ⟨S1024x1024, .f32⟩
  | .local _ .vmem, ⟨1, _⟩ => ⟨S1024x1024, .f32⟩
  | .local _ .vmem, ⟨2, _⟩ => ⟨S256x768, .bf16⟩
  | .local _ .vmem, ⟨3, _⟩ => ⟨S768, .f32⟩
  | .local _ .vmem, ⟨4, _⟩ => ⟨S256x256, .bf16⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S1024x512, .f32⟩
  | .local _ .vmem, ⟨9, _⟩ => ⟨S1024x512, .f32⟩
  | _, _ => ⟨S131072x2x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S131072x2x2x256_S131072x1024 : S131072x2x2x256.ShapeCasts S131072x1024
  inb_S1024x1024_S1024x256_0_0 : ∀ a, (![0, 0] : Fin 2 → Nat) a + S1024x256.size a ≤ S1024x1024.size a
  h_S1024x256 : 0 < S1024x256.numel
  shapeCasts_S1024x256_S1024x256 : S1024x256.ShapeCasts S1024x256
  inb_S1024x1024_S1024x256_0_256 : ∀ a, (![0, 256] : Fin 2 → Nat) a + S1024x256.size a ≤ S1024x1024.size a
  inb_S1024x1024_S1024x256_0_512 : ∀ a, (![0, 512] : Fin 2 → Nat) a + S1024x256.size a ≤ S1024x1024.size a
  inb_S1024x1024_S1024x256_0_768 : ∀ a, (![0, 768] : Fin 2 → Nat) a + S1024x256.size a ≤ S1024x1024.size a
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  shapeCasts_S131072x512_S131072x2x256 : S131072x512.ShapeCasts S131072x2x256
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S131072x512.size a
  hwx0_7 : ∀ i : grid0.Coords, EltTy.bits .f32 = 32 ∨ (Rect.block (s := S131072x512) S1024x512.size (cc0_transform_7 i) (hinb0_7 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x2x2x256 : Shape := ⟨4, ![131072, 2, 2, 256]⟩
abbrev S256x768 : Shape := ⟨2, ![256, 768]⟩
abbrev S768 : Shape := ⟨1, ![768]⟩
abbrev S256x256 : Shape := ⟨2, ![256, 256]⟩
abbrev S256 : Shape := ⟨1, ![256]⟩
abbrev S131072x2x1x256 : Shape := ⟨4, ![131072, 2, 1, 256]⟩
abbrev S131072x2x256 : Shape := ⟨3, ![131072, 2, 256]⟩
abbrev S_ : Shape := ⟨0, ![]⟩
abbrev S131072x256 : Shape := ⟨2, ![131072, 256]⟩
abbrev S131072x768 : Shape := ⟨2, ![131072, 768]⟩
abbrev S1x768 : Shape := ⟨2, ![1, 768]⟩
abbrev S1x1x256 : Shape := ⟨3, ![1, 1, 256]⟩
abbrev S131072 : Shape := ⟨1, ![131072]⟩
abbrev S131072x1 : Shape := ⟨2, ![131072, 1]⟩
abbrev S1x256 : Shape := ⟨2, ![1, 256]⟩
abbrev S131072x1x256 : Shape := ⟨3, ![131072, 1, 256]⟩

abbrev nBuf : Space → Nat
  | .hbm => 88
  | .vmem => 0
  | .smem => 0
  | _ => 0

abbrev bufTy : (tb : Table) → Fin (tcTables nBuf tb) → BufTy
  | .hbm, ⟨0, _⟩ => ⟨S131072x2x2x256, .f32⟩
  | .hbm, ⟨1, _⟩ => ⟨S256x768, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S131072x2x1x256, .f32⟩
  | .hbm, ⟨8, _⟩ => ⟨S131072x2x256, .f32⟩
  | .hbm, ⟨9, _⟩ => ⟨S131072x2x1x256, .f32⟩
  | .hbm, ⟨10, _⟩ => ⟨S131072x2x256, .f32⟩
  | .hbm, ⟨11, _⟩ => ⟨S_, .f32⟩
  | .hbm, ⟨12, _⟩ => ⟨S131072x256, .f32⟩
  | .hbm, ⟨13, _⟩ => ⟨S131072x768, .f32⟩
  | .hbm, ⟨14, _⟩ => ⟨S1x768, .f32⟩
  | .hbm, ⟨15, _⟩ => ⟨S131072x768, .f32⟩
  | .hbm, ⟨16, _⟩ => ⟨S131072x768, .f32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S_, .f32⟩
  | .hbm, ⟨23, _⟩ => ⟨S131072x256, .f32⟩
  | .hbm, ⟨24, _⟩ => ⟨S131072x256, .f32⟩
  | .hbm, ⟨25, _⟩ => ⟨S_, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x256, .f32⟩
  | .hbm, ⟨30, _⟩ => ⟨S_, .f32⟩
  | .hbm, ⟨31, _⟩ => ⟨S131072x256, .f32⟩
  | .hbm, ⟨32, _⟩ => ⟨S131072x256, .f32⟩
  | .hbm, ⟨33, _⟩ => ⟨S_, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x2x256, .f32⟩
  | .hbm, ⟨38, _⟩ => ⟨S1x1x256, .f32⟩
  | .hbm, ⟨39, _⟩ => ⟨S131072x2x256, .f32⟩
  | .hbm, ⟨40, _⟩ => ⟨S131072x2x256, .f32⟩
  | .hbm, ⟨41, _⟩ => ⟨S131072x2x256, .f32⟩
  | .hbm, ⟨42, _⟩ => ⟨S131072x2x256, .f32⟩
  | .hbm, ⟨43, _⟩ => ⟨S_, .f32⟩
  | .hbm, ⟨44, _⟩ => ⟨S131072x2x256, .f32⟩
  | .hbm, ⟨45, _⟩ => ⟨S131072x2x256, .f32⟩
  | .hbm, ⟨46, _⟩ => ⟨S_, .f32⟩
  | .hbm, ⟨47, _⟩ => ⟨S131072x2x256, .f32⟩
  | .hbm, ⟨48, _⟩ => ⟨S131072x2x256, .f32⟩
  | .hbm, ⟨49, _⟩ => ⟨S131072x256, .f32⟩
  | .hbm, ⟨50, _⟩ => ⟨S131072x2x256, .f32⟩
  | .hbm, ⟨51, _⟩ => ⟨S_, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072, .f32⟩
  | .hbm, ⟨56, _⟩ => ⟨S131072x1, .f32⟩
  | .hbm, ⟨57, _⟩ => ⟨S_, .f32⟩
  | .hbm, ⟨58, _⟩ => ⟨S131072x1, .f32⟩
  | .hbm, ⟨59, _⟩ => ⟨S131072x1, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S_, .f32⟩
  | .hbm, ⟨64, _⟩ => ⟨S131072, .f32⟩
  | .hbm, ⟨65, _⟩ => ⟨S131072x1, .f32⟩
  | .hbm, ⟨66, _⟩ => ⟨S_, .f32⟩
  | .hbm, ⟨67, _⟩ => ⟨S131072x1, .f32⟩
  | .hbm, ⟨68, _⟩ => ⟨S131072x1, .f32⟩
  | .hbm, ⟨69, _⟩ => ⟨S131072x256, .f32⟩
  | .hbm, ⟨70, _⟩ => ⟨S131072x256, .f32⟩
  | .hbm, ⟨71, _⟩ => ⟨S_, .f32⟩
  | .hbm, ⟨72, _⟩ => ⟨S131072x1, .f32⟩
  | .hbm, ⟨73, _⟩ => ⟨S131072x1, .f32⟩
  | .hbm, ⟨74, _⟩ => ⟨S131072x1, .f32⟩
  | .hbm, ⟨75, _⟩ => ⟨S131072x256, .f32⟩
  | .hbm, ⟨76, _⟩ => ⟨S131072x256, .f32⟩
  | .hbm, ⟨77, _⟩ => ⟨S1x256, .f32⟩
  | .hbm, ⟨78, _⟩ => ⟨S131072x256, .f32⟩
  | .hbm, ⟨79, _⟩ => ⟨S131072x256, .f32⟩
  | .hbm, ⟨80, _⟩ => ⟨S1x256, .f32⟩
  | .hbm, ⟨81, _⟩ => ⟨S131072x256, .f32⟩
  | .hbm, ⟨82, _⟩ => ⟨S131072x256, .f32⟩
  | .hbm, ⟨83, _⟩ => ⟨S131072x256, .f32⟩
  | .hbm, ⟨84, _⟩ => ⟨S131072x256, .f32⟩
  | .hbm, ⟨85, _⟩ => ⟨S131072x1x256, .f32⟩
  | .hbm, ⟨86, _⟩ => ⟨S131072x1x256, .f32⟩
  | .hbm, ⟨87, _⟩ => ⟨S131072x2x256, .f32⟩
  | _, _ => ⟨S131072x2x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]

class Facts₀ : Prop where
  slices_S131072x2x2x256_S131072x2x1x256_0_0_0_0 : S131072x2x2x256.Slices ![0, 0, 0, 0] S131072x2x1x256
  shapeCasts_S131072x2x1x256_S131072x2x256 : S131072x2x1x256.ShapeCasts S131072x2x256
  slices_S131072x2x2x256_S131072x2x1x256_0_0_1_0 : S131072x2x2x256.Slices ![0, 0, 1, 0] S131072x2x1x256
  reducesTo_S131072x2x256_S131072x256_d1 : S131072x2x256.ReducesTo [1] S131072x256
  h_S_ : 0 < S_.numel
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S_S131072x256 : S_.BroadcastsInDim S131072x256 (![] : Fin 0 → Fin S131072x256.rank)
  bcast_S256_S1x1x256_2 : S256.BroadcastsInDim S1x1x256 (![2] : Fin 1 → Fin S1x1x256.rank)
  bcast_S1x1x256_S131072x2x256_0_1_2 : S1x1x256.BroadcastsInDim S131072x2x256 (![0, 1, 2] : Fin 3 → Fin S131072x2x256.rank)
  bcast_S_S131072x2x256 : S_.BroadcastsInDim S131072x2x256 (![] : Fin 0 → Fin S131072x2x256.rank)
  reducesTo_S131072x256_S131072_d1 : S131072x256.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S131072x256_S131072x1x256_0_2 : S131072x256.BroadcastsInDim S131072x1x256 (![0, 2] : Fin 2 → Fin S131072x1x256.rank)
  concatenates_S131072x1x256_S131072x1x256_S131072x2x256_d1 : Shape.Concatenates [S131072x1x256, S131072x1x256] S131072x2x256 1
  dot_S131072x256_S256x768_S131072x768_1_0_0_1_n_n_wf : DotDims.WF S131072x256 S256x768 S131072x768 [1] [0] [0] [1] [] []
  dot_S131072x2x256_S256x256_S131072x2x256_2_0_01_1_n_n_wf : DotDims.WF S131072x2x256 S256x256 S131072x2x256 [2] [0] [0, 1] [1] [] []

variable [Facts₀]

def dot_S131072x256_S256x768_S131072x768_1_0_0_1_n_n : DotDims S131072x256 S256x768 S131072x768 where
  lhsContracting := [1]
  rhsContracting := [0]
  lhsNonContracting := [0]
  rhsNonContracting := [1]
  lhsBatch := []
  rhsBatch := []
  wf := dot_S131072x256_S256x768_S131072x768_1_0_0_1_n_n_wf
def dot_S131072x2x256_S256x256_S131072x2x256_2_0_01_1_n_n : DotDims S131072x2x256 S256x256 S131072x2x256 where
  lhsContracting := [2]
  rhsContracting := [0]
  lhsNonContracting := [0, 1]
  rhsNonContracting := [1]
  lhsBatch := []
  rhsBatch := []
  wf := dot_S131072x2x256_S256x256_S131072x2x256_2_0_01_1_n_n_wf

class Facts : Prop extends Facts₀ where

variable [Facts]
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.Cell.lean ====
/-
  One node of a child-sum tree LSTM with two children, followed by a layer normalisation of the new cell state, on the
  extended reals.

  A node reads four rows of length 256: the hidden and the cell state of its first child (h0, c0) and of its second
  child (h1, c1). With a 256 x 768 matrix W and a bias b the three gates' pre-activations are
      g j = (sum over c of (h0 c + h1 c) * W c j) + b j,
  columns [0, 256) for the input gate, [256, 512) for the output gate, [512, 768) for the update. Each child has a
  forget gate sigma ((sum over c of h c * Wf c e) + bf e), with sigma x = 1 / (1 + exp (-x)). The new cell state is
      z e = (sigma (g e) * tanh (g (512 + e)) + f0 e * c0 e) + f1 e * c1 e,
  it is normalised along the row,
      n e = ((z e - mean z) * rsqrt (mean (z - mean z)^2 + eps)) * gamma e + beta e,  mean x = (sum x) / 256,
  and the new hidden state is sigma (g (256 + e)) * tanh (n e). The node's result has two rows: the hidden state
  (s = 0) and the normalised cell state (s = 1).
-/
import Idealize.ShloMosaic.PureOps.Ideal
import Idealize.ShloMosaic.Lib.ValueIdx

noncomputable section

open scoped BigOperators

namespace Cert.TreeCell

open Idealize.ShloMosaic

/-- The three gates' pre-activations at column j of 768. -/
def gate (h0 h1 : Fin 256 → EReal) (W : Fin 256 → Fin 768 → EReal) (b : Fin 768 → EReal) (j : Fin 768) : EReal :=
  (∑ c : Fin 256, (h0 c + h1 c) * W c j) + b j

/-- One child's forget gate at column e. -/
def forget (h : Fin 256 → EReal) (Wf : Fin 256 → Fin 256 → EReal) (bf : Fin 256 → EReal) (e : Fin 256) : EReal :=
  Ideal.logistic ((∑ c : Fin 256, h c * Wf c e) + bf e)

/-- Column e of the gates' three blocks of 256 columns. -/
def col0 (e : Fin 256) : Fin 768 := ⟨0 + e.val, by have := e.isLt; omega⟩
def col1 (e : Fin 256) : Fin 768 := ⟨256 + e.val, by have := e.isLt; omega⟩
def col2 (e : Fin 256) : Fin 768 := ⟨512 + e.val, by have := e.isLt; omega⟩

/-- The new cell state before normalisation. -/
def cellSum (g : Fin 768 → EReal) (f0 f1 c0 c1 : Fin 256 → EReal) (e : Fin 256) : EReal :=
  (Ideal.logistic (g (col0 e)) * Ideal.tanh (g (col2 e)) + f0 e * c0 e) + f1 e * c1 e

/-- The mean of a row of 256 entries (256 kept as its f32 word). -/
def mean (z : Fin 256 → EReal) : EReal := Ideal.div (∑ k : Fin 256, z k) (Ideal.ofBits .f32 0x43800000#32)

/-- A row normalised to mean zero and variance one (up to the f32 word of 1e-5), scaled and shifted. -/
def normed (z γ β : Fin 256 → EReal) (e : Fin 256) : EReal :=
  ((z e - mean z) * Ideal.rsqrt (mean (fun k => (z k - mean z) * (z k - mean z)) + Ideal.ofBits .f32 0x3727C5AC#32)) * γ e
    + β e

/-- The node's normalised cell state. -/
def cellState (h0 c0 h1 c1 : Fin 256 → EReal) (W : Fin 256 → Fin 768 → EReal) (b : Fin 768 → EReal)
    (Wf : Fin 256 → Fin 256 → EReal) (bf γ β : Fin 256 → EReal) (e : Fin 256) : EReal :=
  normed (cellSum (gate h0 h1 W b) (forget h0 Wf bf) (forget h1 Wf bf) c0 c1) γ β e

/-- The node's hidden state. -/
def hidden (h0 c0 h1 c1 : Fin 256 → EReal) (W : Fin 256 → Fin 768 → EReal) (b : Fin 768 → EReal)
    (Wf : Fin 256 → Fin 256 → EReal) (bf γ β : Fin 256 → EReal) (e : Fin 256) : EReal :=
  Ideal.logistic (gate h0 h1 W b (col1 e)) * Ideal.tanh (cellState h0 c0 h1 c1 W b Wf bf γ β e)

/-- The node's two result rows: the hidden state, then the normalised cell state. -/
def node (h0 c0 h1 c1 : Fin 256 → EReal) (W : Fin 256 → Fin 768 → EReal) (b : Fin 768 → EReal)
    (Wf : Fin 256 → Fin 256 → EReal) (bf γ β : Fin 256 → EReal) (s : Fin 2) (e : Fin 256) : EReal :=
  if s.val = 0 then hidden h0 c0 h1 c1 W b Wf bf γ β e else cellState h0 c0 h1 c1 W b Wf bf γ β e

/-- The whole result, for N nodes whose children's states are the array X[n, child, state, :] (state 0 hidden, state 1
    cell): entry (n, s, e). -/
def forest (X : (⟨4, ![131072, 2, 2, 256]⟩ : Shape).Idx → EReal) (W : (⟨2, ![256, 768]⟩ : Shape).Idx → EReal)
    (b : (⟨1, ![768]⟩ : Shape).Idx → EReal) (Wf : (⟨2, ![256, 256]⟩ : Shape).Idx → EReal)
    (bf γ β : (⟨1, ![256]⟩ : Shape).Idx → EReal) : (⟨3, ![131072, 2, 256]⟩ : Shape).Idx → EReal := fun i =>
  node (fun c => X (ValueIdx.ix4 (i 0) (0 : Fin 2) (0 : Fin 2) c)) (fun c => X (ValueIdx.ix4 (i 0) (0 : Fin 2) (1 : Fin 2) c))
    (fun c => X (ValueIdx.ix4 (i 0) (1 : Fin 2) (0 : Fin 2) c)) (fun c => X (ValueIdx.ix4 (i 0) (1 : Fin 2) (1 : Fin 2) c))
    (fun c j => W (ValueIdx.ix2 c j)) (fun j => b (ValueIdx.ix1 j)) (fun c e => Wf (ValueIdx.ix2 c e))
    (fun e => bf (ValueIdx.ix1 e)) (fun e => γ (ValueIdx.ix1 e)) (fun e => β (ValueIdx.ix1 e)) (i 1) (i 2)

end Cert.TreeCell

end
-- ==== Proof.KernelRows.lean ====
/-
  What the cell's block computes, entry by entry, on the extended reals.

  A block holds 1024 nodes. Its input is a [1024, 1024] array whose row p is node p's four child rows side by side —
  columns [0, 256) the first child's hidden state, [256, 512) its cell state, [512, 768) and [768, 1024) the second
  child's —, and the body loads each quarter by itself (v0, v2, v4, v6 below), the weights whole. Every value the body
  forms is read here at an entry (p, e): it depends on row p of the loaded quarters alone, and is the matching piece of
  the tree cell (Cell.lean) of that row: the gates' pre-activations, the forget gates, the cell sum, its normalisation
  along the row, the hidden state.
-/
import proofs.«122136_j84791244357740_2_alg».proof.Proof.Gen.KernelIdeal.Skeleton
import proofs.«122136_j84791244357740_2_alg».proof.Proof.LibPlainMatmul
import proofs.«122136_j84791244357740_2_alg».proof.Proof.LibColumnCast
import proofs.«122136_j84791244357740_2_alg».proof.Proof.LibColumnBroadcast
import proofs.«122136_j84791244357740_2_alg».proof.Proof.LibRowWise
import Idealize.ShloMosaic.Lib.ValueLayout
import Idealize.ShloMosaic.Lib.Pipeline.Value
import proofs.«122136_j84791244357740_2_alg».proof.Proof.Cell

noncomputable section

open scoped BigOperators

namespace Cert.KernelRows

open Idealize.ShloMosaic Idealize.ShloMosaic.ValueIdx Cert.KernelIdeal Cert.KernelIdeal.Gen Cert.TreeCell
open Cert.RowWise

/-- Row p of a block with 256 columns. -/
abbrev row (v : Vec Ideal S1024x256 .f32) (p : Fin 1024) : Fin 256 → EReal := fun c => v (ix2 p c)
/-- The [256, 768] weights as a function of row and column, -/
abbrev mat768 (v : Vec Ideal S256x768 .bf16) : Fin 256 → Fin 768 → EReal := fun c j => v (ix2 c j)
/-- the [256, 256] weights, -/
abbrev mat256 (v : Vec Ideal S256x256 .bf16) : Fin 256 → Fin 256 → EReal := fun c e => v (ix2 c e)
/-- a length-768 vector -/
abbrev vec768 (v : Vec Ideal S768 .f32) : Fin 768 → EReal := fun j => v (ix1 j)
/-- and a length-256 vector, by their coordinates. -/
abbrev vec256 (v : Vec Ideal S256 .f32) : Fin 256 → EReal := fun e => v (ix1 e)

/-- The gates' pre-activations: the product of the summed hidden rows with the weights, plus the bias row. -/
theorem gates_apply (v0 v4 : Vec Ideal S1024x256 .f32) (v9 : Vec Ideal S256x768 .bf16) (v13 : Vec Ideal S768 .f32)
    (p : Fin 1024) (j : Fin 768) :
    k0_pay5 (F := Ideal) v0 v4 v9 v13 (ix2 p j) = gate (row v0 p) (row v4 p) (mat768 v9) (vec768 v13) j := by
  unfold k0_pay5 k0_pay3 k0_pay4 gate
  dsimp only
  simp only [shapeCast_self]
  show matmul (F := Ideal) (DotDims.plain 1024 256 768) none (truncf .bf16 (addf v0 v4) Gen.bitsLt_bf16_f32) v9 (constant S1024x768 .f32 0x00000000#32) (ix2 p j)
      + broadcastTo S1024x768 (shapeCast S1x768 v13 _) _ (ix2 p j) = _
  rw [matmul_plain_zero_apply, broadcastTo_1b_ab_apply, shapeCast_a_1a_apply]
  rfl

/-- The output gate: the logistic function of the middle 256 columns of the pre-activations. -/
theorem outGate_apply (v0 v4 : Vec Ideal S1024x256 .f32) (v9 : Vec Ideal S256x768 .bf16) (v13 : Vec Ideal S768 .f32)
    (p : Fin 1024) (e : Fin 256) :
    k0_pay6 (F := Ideal) v0 v4 v9 v13 (ix2 p e)
      = Ideal.logistic (gate (row v0 p) (row v4 p) (mat768 v9) (vec768 v13) (col1 e)) := by
  unfold k0_pay6
  show Ideal.logistic (extractStridedSlice S1024x256 ![0, 256] (k0_pay5 (F := Ideal) v0 v4 v9 v13) _ (ix2 p e)) = _
  rw [slice2_axis1_eq, gates_apply]
  rfl

/-- One child's forget gate: the logistic function of its hidden row times the weights, plus the bias row. -/
theorem forget_apply (v : Vec Ideal S1024x256 .f32) (v23 : Vec Ideal S256x256 .bf16) (v25 : Vec Ideal S256 .f32)
    (p : Fin 1024) (e : Fin 256) :
    logistic (addf (matmul dot_S1024x256_S256x256_S1024x256_1_0_0_1_n_n none
          (truncf .bf16 (shapeCast S1024x256 v shapeCasts_S1024x256_S1024x256) bitsLt_bf16_f32) (k0_pay7 (F := Ideal) v23)
          (constant S1024x256 .f32 0x00000000#32))
        (broadcastTo S1024x256 (shapeCast S1x256 v25 shapeCasts_S256_S1x256) broadcasts_S1x256_S1024x256)) (ix2 p e)
      = forget (row v p) (mat256 v23) (vec256 v25) e := by
  unfold k0_pay7 forget
  dsimp only
  simp only [shapeCast_self]
  show Ideal.logistic (matmul (F := Ideal) (DotDims.plain 1024 256 256) none (truncf .bf16 v Gen.bitsLt_bf16_f32) v23 (constant S1024x256 .f32 0x00000000#32) (ix2 p e)
      + broadcastTo S1024x256 (shapeCast S1x256 v25 _) _ (ix2 p e)) = _
  rw [matmul_plain_zero_apply, broadcastTo_1b_ab_apply, shapeCast_a_1a_apply]
  rfl

/-- The first two terms of the cell sum: input gate times update, plus the first child's forget gate times its cell row. -/
theorem cellHead_apply (v0 v2 v4 : Vec Ideal S1024x256 .f32) (v9 : Vec Ideal S256x768 .bf16) (v13 : Vec Ideal S768 .f32)
    (v23 : Vec Ideal S256x256 .bf16) (v25 : Vec Ideal S256 .f32) (p : Fin 1024) (e : Fin 256) :
    k0_pay8 (F := Ideal) v0 v2 v4 v9 v13 v23 v25 (ix2 p e)
      = Ideal.logistic (gate (row v0 p) (row v4 p) (mat768 v9) (vec768 v13) (col0 e))
          * Ideal.tanh (gate (row v0 p) (row v4 p) (mat768 v9) (vec768 v13) (col2 e))
        + forget (row v0 p) (mat256 v23) (vec256 v25) e * v2 (ix2 p e) := by
  unfold k0_pay8 k0_pay3
  dsimp only
  show Ideal.logistic (extractStridedSlice S1024x256 ![0, 0] (k0_pay5 (F := Ideal) v0 v4 v9 v13) _ (ix2 p e))
        * Ideal.tanh (extractStridedSlice S1024x256 ![0, 512] (k0_pay5 (F := Ideal) v0 v4 v9 v13) _ (ix2 p e))
      + logistic (addf (matmul dot_S1024x256_S256x256_S1024x256_1_0_0_1_n_n none
          (truncf .bf16 (shapeCast S1024x256 v0 shapeCasts_S1024x256_S1024x256) bitsLt_bf16_f32) (k0_pay7 (F := Ideal) v23)
          (constant S1024x256 .f32 0x00000000#32))
        (broadcastTo S1024x256 (shapeCast S1x256 v25 shapeCasts_S256_S1x256) broadcasts_S1x256_S1024x256)) (ix2 p e)
        * shapeCast S1024x256 v2 shapeCasts_S1024x256_S1024x256 (ix2 p e) = _
  rw [slice2_axis1_eq, slice2_axis1_eq, gates_apply, gates_apply, forget_apply, shapeCast_self]
  rfl

/-- The last term of the cell sum: the second child's forget gate times its cell row. -/
theorem cellTail_apply (v4 v6 : Vec Ideal S1024x256 .f32) (v23 : Vec Ideal S256x256 .bf16) (v25 : Vec Ideal S256 .f32)
    (p : Fin 1024) (e : Fin 256) :
    k0_pay9 (F := Ideal) v4 v6 v23 v25 (ix2 p e) = forget (row v4 p) (mat256 v23) (vec256 v25) e * v6 (ix2 p e) := by
  unfold k0_pay9 k0_pay4
  dsimp only
  show logistic (addf (matmul dot_S1024x256_S256x256_S1024x256_1_0_0_1_n_n none
          (truncf .bf16 (shapeCast S1024x256 v4 shapeCasts_S1024x256_S1024x256) bitsLt_bf16_f32) (k0_pay7 (F := Ideal) v23)
          (constant S1024x256 .f32 0x00000000#32))
        (broadcastTo S1024x256 (shapeCast S1x256 v25 shapeCasts_S256_S1x256) broadcasts_S1x256_S1024x256)) (ix2 p e)
        * shapeCast S1024x256 v6 shapeCasts_S1024x256_S1024x256 (ix2 p e) = _
  rw [forget_apply, shapeCast_self]

/-- A sum along the rows of a block, from the zero word, at row p. -/
theorem rowSum_apply (Z : FVec Ideal S1024x256 .f32) (h : S1024x256.Reduces [1] S1024) (hφ : FKind.Formats .f32)
    (hacc : (0x00000000#32 : BitVec 32) = 0x00000000#32) (p : Fin 1024) :
    multiReduction .add [1] S1024 Z 0x00000000#32 h hφ hacc (ix1 p) = ∑ k : Fin 256, Z (ix2 p k) :=
  vecRowSum_apply Z 0x00000000#32 h hφ hacc p

/-- A row's mean, formed as a column and spread back over the 256 columns. -/
theorem meanSpread_apply (Z : FVec Ideal S1024x256 .f32) (h : S1024x256.Reduces [1] S1024) (hφ : FKind.Formats .f32)
    (hacc : (0x00000000#32 : BitVec 32) = 0x00000000#32) (hc : S1024.ShapeCasts S1024x1)
    (hb : S1024x1.Broadcasts S1024x256) (p : Fin 1024) (e : Fin 256) :
    broadcastTo S1024x256 (divf (shapeCast S1024x1 (multiReduction .add [1] S1024 Z 0x00000000#32 h hφ hacc) hc)
        (broadcast S1024x1 (FloatOps.ofBits (F := Ideal) .f32 0x43800000#32))) hb (ix2 p e)
      = mean (fun k => Z (ix2 p k)) := by
  rw [Cert.LibColumnBroadcast.broadcastTo_a1_ab_apply]
  show Ideal.div (shapeCast S1024x1 (multiReduction .add [1] S1024 Z 0x00000000#32 h hφ hacc) hc (ix2 p (0 : Fin 1))) _ = _
  rw [Cert.LibColumnCast.shapeCast_a_a1_apply, rowSum_apply]
  rfl

/-- The reciprocal square root of a row's mean plus the small constant, formed as a column and spread back. -/
theorem rsqrtSpread_apply (Y : FVec Ideal S1024x256 .f32) (h : S1024x256.Reduces [1] S1024) (hφ : FKind.Formats .f32)
    (hacc : (0x00000000#32 : BitVec 32) = 0x00000000#32) (hc : S1024.ShapeCasts S1024x1)
    (hb : S1024x1.Broadcasts S1024x256) (p : Fin 1024) (e : Fin 256) :
    broadcastTo S1024x256 (rsqrt (addf (divf (shapeCast S1024x1 (multiReduction .add [1] S1024 Y 0x00000000#32 h hφ hacc) hc)
        (broadcast S1024x1 (FloatOps.ofBits (F := Ideal) .f32 0x43800000#32)))
        (broadcast S1024x1 (FloatOps.ofBits (F := Ideal) .f32 0x3727C5AC#32)))) hb (ix2 p e)
      = Ideal.rsqrt (mean (fun k => Y (ix2 p k)) + Ideal.ofBits .f32 0x3727C5AC#32) := by
  rw [Cert.LibColumnBroadcast.broadcastTo_a1_ab_apply]
  show Ideal.rsqrt (Ideal.div (shapeCast S1024x1 (multiReduction .add [1] S1024 Y 0x00000000#32 h hφ hacc) hc (ix2 p (0 : Fin 1))) _ + _) = _
  rw [Cert.LibColumnCast.shapeCast_a_a1_apply, rowSum_apply]
  rfl

/-- The normalised cell state: the two halves of the cell sum added, normalised along the row, scaled and shifted. -/
theorem normed_apply (v40 v41 : FVec Ideal S1024x256 .f32) (v61 v65 : Vec Ideal S256 .f32) (p : Fin 1024) (e : Fin 256) :
    k0_pay1 (F := Ideal) v40 v41 v61 v65 (ix2 p e)
      = normed (fun k => v40 (ix2 p k) + v41 (ix2 p k)) (vec256 v61) (vec256 v65) e := by
  unfold k0_pay1 normed
  dsimp only
  simp only [addf_apply, mulf_apply, subf_apply, broadcastTo_1b_ab_apply, shapeCast_a_1a_apply]
  rw [meanSpread_apply, rsqrtSpread_apply]
  simp only [addf_apply, mulf_apply, subf_apply]
  refine congrArg₂ (· + ·) (congrArg₂ (· * ·) (congrArg₂ (· * ·) rfl (congrArg Ideal.rsqrt
    (congrArg₂ (· + ·) (congrArg mean (funext fun k => ?_)) rfl))) rfl) rfl
  rw [meanSpread_apply]
  rfl

/-- The hidden state: the output gate times the hyperbolic tangent of the normalised cell state. -/
theorem hidden_apply (v20 v40 v41 : FVec Ideal S1024x256 .f32) (v61 v65 : Vec Ideal S256 .f32) (p : Fin 1024) (e : Fin 256) :
    k0_pay2 (F := Ideal) v20 v40 v41 v61 v65 (ix2 p e)
      = v20 (ix2 p e) * Ideal.tanh (k0_pay1 (F := Ideal) v40 v41 v61 v65 (ix2 p e)) := rfl

end Cert.KernelRows

end
-- ==== Proof.LibRectLoad.lean ====
/-
  A load through a rectangle of a matrix.

  A unit-stride rectangle of an `[n0, n1]` array with offsets `(o0, o1)` and extents `[b0, b1]` names the entries
  `(o0 + k, o1 + q)` for `k < b0`, `q < b1`. Loading the array through it gives the `[b0, b1]` array whose entry at
  `(k, q)` is the array's entry at `(o0 + k, o1 + q)`: a slice of a weight matrix read off its buffer.
-/
import Idealize.ShloMosaic.Lib.Pipeline.FrameBody
import Idealize.ShloMosaic.Lib.ValueIdx

namespace Cert.LibRectLoad

open Idealize.ShloMosaic Idealize.ShloMosaic.ValueIdx

/-- A load through a unit-stride rectangle of a rank-two array reads, at `(k, q)`, the array at the rectangle's offsets
    plus `(k, q)`. -/
theorem ld2_apply {F : FTy → Type} {n0 n1 b0 b1 : ℕ} {e : EltTy} (X : Vec F ⟨2, ![n0, n1]⟩ e) (o0 o1 : ℕ)
    (inb : ∀ a, ![o0, o1] a + (⟨2, ![b0, b1]⟩ : Shape).size a ≤ (⟨2, ![n0, n1]⟩ : Shape).size a)
    (k : Fin b0) (q : Fin b1) (h0 : o0 + k.val < n0) (h1 : o1 + q.val < n1) :
    View.ld X (Rect.unit (s := ⟨2, ![n0, n1]⟩) ![o0, o1] (⟨2, ![b0, b1]⟩ : Shape).size inb) (ix2 k q)
      = X (ix2 ⟨o0 + k.val, h0⟩ ⟨o1 + q.val, h1⟩) := by
  show X ((Rect.unit (s := ⟨2, ![n0, n1]⟩) ![o0, o1] (⟨2, ![b0, b1]⟩ : Shape).size inb).idx (ix2 k q)) = _
  refine congrArg X (funext fun a => Fin.ext ?_)
  match a with
  | ⟨0, _⟩ => show o0 + 1 * k.val = o0 + k.val; omega
  | ⟨1, _⟩ => show o1 + 1 * q.val = o1 + q.val; omega

end Cert.LibRectLoad
-- ==== Proof.KernelBlock.lean ====
/-
  The kernel's result array, entry by entry.

  The call runs over 128 blocks of 1024 nodes. Block t reads rows [1024 t, 1024 t + 1024) of the [131072, 1024] array
  of child rows (each node's four rows side by side) and the weights whole, and writes rows [1024 t, 1024 t + 1024) of
  a [131072, 512] array: columns [0, 256) the hidden state, columns [256, 512) the normalised cell state. A row of
  the result depends on the same row of the input alone, so the block's rows are the array's rows, the blocks tile the
  array, and the array read as [131072, 2, 256] is the forest of Cell.lean.
-/
import proofs.«122136_j84791244357740_2_alg».proof.Proof.Gen.KernelIdeal.Frame
import proofs.«122136_j84791244357740_2_alg».proof.Proof.KernelRows
import proofs.«122136_j84791244357740_2_alg».proof.Proof.LibRectLoad

set_option maxRecDepth 16384

noncomputable section

open scoped BigOperators

namespace Cert.KernelBlock

open Idealize.ShloMosaic Idealize.ShloMosaic.ValueIdx Idealize.ShloMosaic.TcCoe Idealize.SL.Sem
open Cert.KernelIdeal Cert.KernelIdeal.Gen Cert.TreeCell Cert.KernelRows

/-- The 256 columns from column o of row p of an array with 1024 columns: one child row of node p. -/
def quarter {n : ℕ} (X : (⟨2, ![n, 1024]⟩ : Shape).Idx → EReal) (o : ℕ) (ho : o + 256 ≤ 1024) (p : Fin n) : Fin 256 → EReal :=
  fun c => X (ix2 p ⟨o + c.val, by have := c.isLt; omega⟩)

/-- Node p of an array of child rows X (any number of rows), with the weights as arrays: result row s, column e. -/
def rowsNode {n : ℕ} (X : (⟨2, ![n, 1024]⟩ : Shape).Idx → EReal) (W : S256x768.Idx → EReal) (b : S768.Idx → EReal)
    (Wf : S256x256.Idx → EReal) (bf γ β : S256.Idx → EReal) (p : Fin n) (s : Fin 2) (e : Fin 256) : EReal :=
  node (quarter X 0 (by omega) p) (quarter X 256 (by omega) p) (quarter X 512 (by omega) p) (quarter X 768 (by omega) p)
    (fun c j => W (ix2 c j)) (fun j => b (ix1 j)) (fun c e => Wf (ix2 c e)) (fun e => bf (ix1 e))
    (fun e => γ (ix1 e)) (fun e => β (ix1 e)) s e

/-- It depends on row p of X alone. -/
theorem rowsNode_congr {n n' : ℕ} (X : (⟨2, ![n, 1024]⟩ : Shape).Idx → EReal) (X' : (⟨2, ![n', 1024]⟩ : Shape).Idx → EReal)
    (W : S256x768.Idx → EReal) (b : S768.Idx → EReal) (Wf : S256x256.Idx → EReal) (bf γ β : S256.Idx → EReal)
    (p : Fin n) (p' : Fin n') (h : ∀ q : Fin 1024, X (ix2 p q) = X' (ix2 p' q)) (s : Fin 2) (e : Fin 256) :
    rowsNode X W b Wf bf γ β p s e = rowsNode X' W b Wf bf γ β p' s e := by
  have hq : ∀ (o : ℕ) (ho : o + 256 ≤ 1024), quarter X o ho p = quarter X' o ho p' := fun o ho => funext fun c => h _
  unfold rowsNode
  rw [hq, hq, hq, hq]

theorem zeros2 : (![0, 0] : Fin 2 → ℕ) = fun _ => 0 := funext fun a => by fin_cases a <;> rfl
theorem zeros1 : (![0] : Fin 1 → ℕ) = fun _ => 0 := funext fun a => by fin_cases a; rfl

/-- A quarter of the input block loaded through its rectangle is that quarter of the block's rows. -/
theorem ld_quarter (x0 : Vec Ideal S1024x1024 .f32) (o : ℕ) (ho : o + 256 ≤ 1024)
    (inb : ∀ a, (![0, o] : Fin 2 → ℕ) a + S1024x256.size a ≤ S1024x1024.size a) (p : Fin 1024) :
    row (View.ld x0 (Rect.unit (s := S1024x1024) ![0, o] S1024x256.size inb)) p = quarter x0 o ho p := by
  funext c
  refine (Cert.LibRectLoad.ld2_apply x0 0 o inb p c (by have := p.isLt; omega) (by have := c.isLt; omega)).trans ?_
  refine congrArg x0 (funext fun a => Fin.ext ?_)
  match a with
  | ⟨0, _⟩ => exact Nat.zero_add _
  | ⟨1, _⟩ => rfl

/-- The normalised cell state the body stores in columns [256, 512): entry (p, e) is row 1 of node p. -/
theorem cellState_blk (x0 : Vec Ideal S1024x1024 .f32) (x1 : Vec Ideal S256x768 .bf16) (x2 : Vec Ideal S768 .f32)
    (x3 : Vec Ideal S256x256 .bf16) (x4 x5 x6 : Vec Ideal S256 .f32) (p : Fin 1024) (e : Fin 256) :
    k0_pay1 (F := Ideal) (k0_pay8 (View.ld x0 r0_0) (View.ld x0 r0_1) (View.ld x0 r0_2) (View.ld x1 r0_4) (View.ld x2 r0_5) (View.ld x3 r0_6) (View.ld x4 r0_7))
        (k0_pay9 (View.ld x0 r0_2) (View.ld x0 r0_3) (View.ld x3 r0_6) (View.ld x4 r0_7)) (View.ld x5 r0_7) (View.ld x6 r0_7) (ix2 p e)
      = rowsNode x0 x1 x2 x3 x4 x5 x6 p 1 e := by
  have e4 : View.ld x1 r0_4 = x1 := View.ld_unit_zero zeros2 _ x1
  have e5 : View.ld x2 r0_5 = x2 := View.ld_unit_zero zeros1 _ x2
  have e6 : View.ld x3 r0_6 = x3 := View.ld_unit_zero zeros2 _ x3
  have e7 : ∀ x : Vec Ideal S256 .f32, View.ld x r0_7 = x := fun x => View.ld_unit_zero zeros1 _ x
  rw [e4, e5, e6, e7 x4, e7 x5, e7 x6, normed_apply]
  unfold rowsNode node
  rw [if_neg (by decide : ¬ ((1 : Fin 2).val = 0))]
  unfold cellState
  refine congrArg (fun z => normed z (vec256 x5) (vec256 x6) e) (funext fun k => ?_)
  rw [cellHead_apply, cellTail_apply, ld_quarter x0 0 (by omega), ld_quarter x0 512 (by omega)]
  unfold cellSum
  refine congrArg₂ (· + ·) (congrArg₂ (· + ·) rfl (congrArg₂ (· * ·) rfl ?_)) (congrArg₂ (· * ·) rfl ?_)
  · exact congrFun (ld_quarter x0 256 (by omega) _ p) k
  · exact congrFun (ld_quarter x0 768 (by omega) _ p) k

/-- Row 1 of a node is its normalised cell state, -/
theorem rowsNode_one {n : ℕ} (X : (⟨2, ![n, 1024]⟩ : Shape).Idx → EReal) (W : S256x768.Idx → EReal) (b : S768.Idx → EReal)
    (Wf : S256x256.Idx → EReal) (bf γ β : S256.Idx → EReal) (p : Fin n) (e : Fin 256) :
    rowsNode X W b Wf bf γ β p 1 e
      = cellState (quarter X 0 (by omega) p) (quarter X 256 (by omega) p) (quarter X 512 (by omega) p) (quarter X 768 (by omega) p)
          (fun c j => W (ix2 c j)) (fun j => b (ix1 j)) (fun c e => Wf (ix2 c e)) (fun e => bf (ix1 e))
          (fun e => γ (ix1 e)) (fun e => β (ix1 e)) e := by
  unfold rowsNode node
  rw [if_neg (by decide : ¬ ((1 : Fin 2).val = 0))]

/-- and row 0 its hidden state. -/
theorem rowsNode_zero {n : ℕ} (X : (⟨2, ![n, 1024]⟩ : Shape).Idx → EReal) (W : S256x768.Idx → EReal) (b : S768.Idx → EReal)
    (Wf : S256x256.Idx → EReal) (bf γ β : S256.Idx → EReal) (p : Fin n) (e : Fin 256) :
    rowsNode X W b Wf bf γ β p 0 e
      = hidden (quarter X 0 (by omega) p) (quarter X 256 (by omega) p) (quarter X 512 (by omega) p) (quarter X 768 (by omega) p)
          (fun c j => W (ix2 c j)) (fun j => b (ix1 j)) (fun c e => Wf (ix2 c e)) (fun e => bf (ix1 e))
          (fun e => γ (ix1 e)) (fun e => β (ix1 e)) e := by
  unfold rowsNode node
  rw [if_pos (by decide : (0 : Fin 2).val = 0)]

/-- The hidden state the body stores in columns [0, 256): entry (p, e) is row 0 of node p. -/
theorem hidden_blk (x0 : Vec Ideal S1024x1024 .f32) (x1 : Vec Ideal S256x768 .bf16) (x2 : Vec Ideal S768 .f32)
    (x3 : Vec Ideal S256x256 .bf16) (x4 x5 x6 : Vec Ideal S256 .f32) (p : Fin 1024) (e : Fin 256) :
    k0_pay2 (F := Ideal) (k0_pay6 (View.ld x0 r0_0) (View.ld x0 r0_2) (View.ld x1 r0_4) (View.ld x2 r0_5))
        (k0_pay8 (View.ld x0 r0_0) (View.ld x0 r0_1) (View.ld x0 r0_2) (View.ld x1 r0_4) (View.ld x2 r0_5) (View.ld x3 r0_6) (View.ld x4 r0_7))
        (k0_pay9 (View.ld x0 r0_2) (View.ld x0 r0_3) (View.ld x3 r0_6) (View.ld x4 r0_7)) (View.ld x5 r0_7) (View.ld x6 r0_7) (ix2 p e)
      = rowsNode x0 x1 x2 x3 x4 x5 x6 p 0 e := by
  have e4 : View.ld x1 r0_4 = x1 := View.ld_unit_zero zeros2 _ x1
  have e5 : View.ld x2 r0_5 = x2 := View.ld_unit_zero zeros1 _ x2
  rw [hidden_apply, cellState_blk, outGate_apply, e4, e5, ld_quarter x0 0 (by omega), ld_quarter x0 512 (by omega),
    rowsNode_one, rowsNode_zero]
  rfl

/-- Which of the two result rows a column of the [_, 512] layout belongs to, -/
def half (b : Fin 512) : Fin 2 := ⟨b.val / 256, by have := b.isLt; omega⟩
/-- and its place in that row. -/
def within (b : Fin 512) : Fin 256 := ⟨b.val % 256, Nat.mod_lt _ (by norm_num)⟩

/-- What the body leaves in the output block, as one function of the block's index. -/
def blockOut (x0 : Vec Ideal S1024x1024 .f32) (x1 : Vec Ideal S256x768 .bf16) (x2 : Vec Ideal S768 .f32)
    (x3 : Vec Ideal S256x256 .bf16) (x4 x5 x6 : Vec Ideal S256 .f32) : S1024x512.Idx → EReal :=
  fun y => rowsNode x0 x1 x2 x3 x4 x5 x6 (y 0) (half (y 1)) (within (y 1))

/-- At an index whose coordinates are row p and column 256 s + e it is entry (s, e) of node p. -/
theorem blockOut_at (x0 : Vec Ideal S1024x1024 .f32) (x1 : Vec Ideal S256x768 .bf16) (x2 : Vec Ideal S768 .f32)
    (x3 : Vec Ideal S256x256 .bf16) (x4 x5 x6 : Vec Ideal S256 .f32) (y : S1024x512.Idx) (p : Fin 1024) (s : Fin 2)
    (e : Fin 256) (h0 : (y 0).val = p.val) (h1 : (y 1).val = s.val * 256 + e.val) :
    blockOut x0 x1 x2 x3 x4 x5 x6 y = rowsNode x0 x1 x2 x3 x4 x5 x6 p s e := by
  obtain ⟨a, b, rfl⟩ : ∃ (a : Fin 1024) (b : Fin 512), y = ix2 a b := ⟨y 0, y 1, eq_ix2 y⟩
  obtain rfl : a = p := Fin.ext h0
  have hs : half b = s := Fin.ext (by show b.val / 256 = s.val; have := e.isLt; have : b.val = s.val * 256 + e.val := h1; omega)
  have he : within b = e := Fin.ext (by show b.val % 256 = e.val; have := e.isLt; have : b.val = s.val * 256 + e.val := h1; omega)
  show rowsNode x0 x1 x2 x3 x4 x5 x6 a (half b) (within b) = _
  rw [hs, he]

/-- The body's two stores leave that function in the output block. -/
theorem out_eq (x0 : Vec Ideal S1024x1024 .f32) (x1 : Vec Ideal S256x768 .bf16) (x2 : Vec Ideal S768 .f32)
    (x3 : Vec Ideal S256x256 .bf16) (x4 x5 x6 : Vec Ideal S256 .f32) :
    out0_7 (F := Ideal) x0 x1 x2 x3 x4 x5 x6 = blockOut x0 x1 x2 x3 x4 x5 x6 := by
  funext y
  unfold out0_7
  refine View.canon_apply_of_pieces (Val := Elt Ideal) (e := .f32) (blockOut x0 x1 x2 x3 x4 x5 x6) _ ?_ y (cover0_7 _ _ y)
  intro pc hpc x
  simp only [List.mem_cons, List.mem_nil_iff, or_false] at hpc
  rcases hpc with rfl | rfl
  · obtain ⟨p, e, rfl⟩ : ∃ (p : Fin 1024) (e : Fin 256), x = ix2 p e := ⟨x 0, x 1, eq_ix2 x⟩
    refine (cellState_blk x0 x1 x2 x3 x4 x5 x6 p e).trans (blockOut_at x0 x1 x2 x3 x4 x5 x6 _ p 1 e ?_ ?_).symm
    · show 0 + 1 * p.val = p.val; omega
    · show 256 + 1 * e.val = 1 * 256 + e.val; omega
  · obtain ⟨p, e, rfl⟩ : ∃ (p : Fin 1024) (e : Fin 256), x = ix2 p e := ⟨x 0, x 1, eq_ix2 x⟩
    refine (hidden_blk x0 x1 x2 x3 x4 x5 x6 p e).trans (blockOut_at x0 x1 x2 x3 x4 x5 x6 _ p 0 e ?_ ?_).symm
    · show 0 + 1 * p.val = p.val; omega
    · show 0 + 1 * e.val = 0 * 256 + e.val; omega

/-! ## From the blocks to the array -/

/-- A node depends on its row of X and on the weights. -/
theorem rowsNode_congr' {n n' : ℕ} (X : (⟨2, ![n, 1024]⟩ : Shape).Idx → EReal) (X' : (⟨2, ![n', 1024]⟩ : Shape).Idx → EReal)
    (W W' : S256x768.Idx → EReal) (b b' : S768.Idx → EReal) (Wf Wf' : S256x256.Idx → EReal) (bf bf' γ γ' β β' : S256.Idx → EReal)
    (p : Fin n) (p' : Fin n') (s s' : Fin 2) (e e' : Fin 256) (h : ∀ q : Fin 1024, X (ix2 p q) = X' (ix2 p' q))
    (hW : W = W') (hb : b = b') (hWf : Wf = Wf') (hbf : bf = bf') (hγ : γ = γ') (hβ : β = β') (hs : s = s') (he : e = e') :
    rowsNode X W b Wf bf γ β p s e = rowsNode X' W' b' Wf' bf' γ' β' p' s' e' := by
  subst hW hb hWf hbf hγ hβ hs he
  exact rowsNode_congr X X' W b Wf bf γ β p p' h s e

/-- The result array [131072, 512] as one function of the arrays the call reads: row n is node n, its two result
    rows side by side. -/
def arrayOut (Xf : S131072x1024.Idx → EReal) (W : S256x768.Idx → EReal) (b : S768.Idx → EReal) (Wf : S256x256.Idx → EReal)
    (bf γ β : S256.Idx → EReal) : S131072x512.Idx → EReal :=
  fun i => rowsNode Xf W b Wf bf γ β (i 0) (half (i 1)) (within (i 1))

variable (m : (ℓ : Loc nD τ sig) → Buf (Elt Ideal) ℓ) (ρ : Dev nD → PrngReg)

/-- The block index maps over the grid: the child rows' and the result's blocks move together down the rows, and
    every other window stays at its one block. -/
theorem idx_facts : ∀ t : Fin cfg0.N,
    win0_0.index t (0 : Fin 2) = win0_7.index t (0 : Fin 2) ∧ win0_0.index t (1 : Fin 2) = 0 ∧ win0_7.index t (1 : Fin 2) = 0
    ∧ win0_7.index t (0 : Fin 2) ≤ 127
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 1) = 0 ∧ win0_6.index t (0 : Fin 1) = 0 :=
  (by decide +kernel : ∀ t : Fin grid0.N, _)

/-- Every block of 1024 rows of the result is some point's. -/
theorem idx_onto : ∀ q0 : Fin 128, ∃ t : Fin cfg0.N, win0_7.index t = ![q0.val, 0] :=
  (by decide +kernel : ∀ q0 : Fin 128, ∃ t : Fin grid0.N, win0_7.index t = ![q0.val, 0])

/-- WHAT POINT t WRITES BACK is block t of the result array. -/
theorem flushed_eq (c : Dev nD) (t : Fin cfg0.N) :
    (dats m 0 c).flushed 7 t = ((cfg0.win 7).blk t).view.read (Elt Ideal)
      (arrayOut (V m c main_v2) (V m c main_v0) (V m c main_arg2) (V m c main_v1) (V m c main_arg4) (V m c main_arg5) (V m c main_arg6)) := by
  show (cfg0.win 7).cut (grid0.coords t) ((dats m 0 c).after 7 t) = _
  rw [after0_7]
  obtain ⟨e0, e1, e2, e3, e4, e5, e6, e7, e8, e9, e10, e11⟩ := idx_facts t
  refine funext fun (j : S1024x512.Idx) => ?_
  refine (congrFun (out_eq (iblk m c 0 t) (iblk m c 1 t) (iblk m c 2 t) (iblk m c 3 t) (iblk m c 4 t) (iblk m c 5 t) (iblk m c 6 t)) j).trans ?_
  obtain ⟨p, b, rfl⟩ : ∃ (p : Fin 1024) (b : Fin 512), j = ix2 p b := ⟨j 0, j 1, eq_ix2 j⟩
  show rowsNode (iblk m c 0 t) (iblk m c 1 t) (iblk m c 2 t) (iblk m c 3 t) (iblk m c 4 t) (iblk m c 5 t) (iblk m c 6 t) p (half b) (within b)
    = rowsNode (V m c main_v2) (V m c main_v0) (V m c main_arg2) (V m c main_v1) (V m c main_arg4) (V m c main_arg5) (V m c main_arg6)
        ((((cfg0.win 7).blk t).view.emb (ix2 p b)) 0) (half ((((cfg0.win 7).blk t).view.emb (ix2 p b)) 1))
        (within ((((cfg0.win 7).blk t).view.emb (ix2 p b)) 1))
  have hcol : b = (((cfg0.win 7).blk t).view.emb (ix2 p b)) 1 :=
    Fin.ext (by show b.val = win0_7.index t (1 : Fin 2) * 512 + 1 * b.val; omega)
  refine rowsNode_congr' _ _ _ _ _ _ _ _ _ _ _ _ _ _ _ _ _ _ _ _ ?_ ?_ ?_ ?_ ?_ ?_ ?_ (congrArg half hcol) (congrArg within hcol)
  · intro q
    show V m c main_v2 (((cfg0.win 0).blk t).view.emb (ix2 p q)) = _
    refine congrArg _ (funext fun a => Fin.ext ?_)
    match a with
    | ⟨0, _⟩ => show win0_0.index t (0 : Fin 2) * 1024 + 1 * p.val = win0_7.index t (0 : Fin 2) * 1024 + 1 * p.val; omega
    | ⟨1, _⟩ => show win0_0.index t (1 : Fin 2) * 1024 + 1 * q.val = q.val; omega
  · funext y
    show V m c main_v0 (((cfg0.win 1).blk t).view.emb y) = V m c main_v0 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 768 + 1 * (y 1).val = (y 1).val; omega
  · funext y
    show V m c main_arg2 (((cfg0.win 2).blk t).view.emb y) = V m c main_arg2 y
    refine congrArg _ (funext fun a => Fin.ext ?_)
    match a with
    | ⟨0, _⟩ => show win0_2.index t (0 : Fin 1) * 768 + 1 * (y 0).val = (y 0).val; omega
  · funext y
    show V m c main_v1 (((cfg0.win 3).blk t).view.emb y) = V m c main_v1 y
    refine congrArg _ (funext fun a => Fin.ext ?_)
    match a with
    | ⟨0, _⟩ => show win0_3.index t (0 : Fin 2) * 256 + 1 * (y 0).val = (y 0).val; omega
    | ⟨1, _⟩ => show win0_3.index t (1 : Fin 2) * 256 + 1 * (y 1).val = (y 1).val; omega
  · funext y
    show V m c main_arg4 (((cfg0.win 4).blk t).view.emb y) = V m c main_arg4 y
    refine congrArg _ (funext fun a => Fin.ext ?_)
    match a with
    | ⟨0, _⟩ => show win0_4.index t (0 : Fin 1) * 256 + 1 * (y 0).val = (y 0).val; omega
  · funext y
    show V m c main_arg5 (((cfg0.win 5).blk t).view.emb y) = V m c main_arg5 y
    refine congrArg _ (funext fun a => Fin.ext ?_)
    match a with
    | ⟨0, _⟩ => show win0_5.index t (0 : Fin 1) * 256 + 1 * (y 0).val = (y 0).val; omega
  · funext y
    show V m c main_arg6 (((cfg0.win 6).blk t).view.emb y) = V m c main_arg6 y
    refine congrArg _ (funext fun a => Fin.ext ?_)
    match a with
    | ⟨0, _⟩ => show win0_6.index t (0 : Fin 1) * 256 + 1 * (y 0).val = (y 0).val; omega

/-- An index of the result array is in point t's block iff each coordinate is in the block's range on its axis. -/
theorem mem_blk (t : Fin cfg0.N) (i : S131072x512.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v3).slice (win0_7.rect t)).set ↔ _
  rw [View.set_slice_whole, Rect.mem_set_unit]
  exact Iff.rfl

/-- Row n of the result array lies in the block of point n / 1024. -/
theorem cover (i : S131072x512.Idx) :
    ∃ t : Fin cfg0.N, (cfg0.win 7).flush t = true ∧ i ∈ ((cfg0.win 7).blk t).view.set := by
  have hi0 : (i 0).val < 131072 := (i 0).isLt
  have hi1 : (i 1).val < 512 := (i 1).isLt
  obtain ⟨t, ht⟩ := idx_onto ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- THE RESULT ARRAY after the call. -/
theorem final (c : Dev nD) : (dats m 0 c).arrAt 7 cfg0.N
    = arrayOut (V m c main_v2) (V m c main_v0) (V m c main_arg2) (V m c main_v1) (V m c main_arg4) (V m c main_arg5) (V m c main_arg6) :=
  (dats m 0 c).arrAt_eq_of_cover 7 _ (fun t _ => flushed_eq m c t) cover

/-! ## The arrays the call reads, and the reshape after it -/

/-- The call's first operand is the argument array of child rows flattened to [131072, 1024]. -/
theorem V_v2 (c : Dev nD) : (V m c main_v2 : S131072x1024.Idx → EReal)
    = shapeCast S131072x1024 (m ((c : Thread nD τ).loc main_arg0)) Gen.shapeCasts_S131072x2x2x256_S131072x1024 := by
  show StableHlo.after hostOps0 (fun b => m (c, b)) (Proc.devRef .tc main_v2) = _
  after_results
  rfl

/-- The gates' weights reach the call narrowed to a shorter float format: the same numbers. -/
theorem V_v0 (c : Dev nD) : (V m c main_v0 : S256x768.Idx → EReal) = m ((c : Thread nD τ).loc main_arg1) := by
  show StableHlo.after hostOps0 (fun b => m (c, b)) (Proc.devRef .tc main_v0) = _
  after_results
  rfl

/-- So do the forget gates' weights. -/
theorem V_v1 (c : Dev nD) : (V m c main_v1 : S256x256.Idx → EReal) = m ((c : Thread nD τ).loc main_arg3) := by
  show StableHlo.after hostOps0 (fun b => m (c, b)) (Proc.devRef .tc main_v1) = _
  after_results
  rfl

/-- The program's result: the call's result array read as [131072, 2, 256]. -/
theorem tail_eq (c : Dev nD) :
    (Pipeline.afterTail₀ cfgs (dats m) 0 (V0 m) [hostOps1] c main_v4 : S131072x2x256.Idx → EReal)
      = shapeCast S131072x2x256 (arrayOut (V m c main_v2) (V m c main_v0) (V m c main_arg2) (V m c main_v1) (V m c main_arg4)
          (V m c main_arg5) (V m c main_arg6)) Gen.shapeCasts_S131072x512_S131072x2x256 := by
  unfold Pipeline.afterTail₀
  show StableHlo.after hostOps1 _ (Proc.devRef .tc main_v4) = _
  after_results
  exact congrArg (fun A => shapeCast S131072x2x256 A Gen.shapeCasts_S131072x512_S131072x2x256)
    ((Pipeline.withArrays_arr spec0 launch0.win.arr_inj c _ _ 7).trans (final m c))

/-! ## The result array is the forest -/

/-- A quarter of a row of the flattened child rows is one child row: child k, state st sits at columns
    [512 k + 256 st, 512 k + 256 st + 256). -/
theorem quarter_cast (X : S131072x2x2x256.Idx → EReal) (h1 : S131072x2x2x256.ShapeCasts S131072x1024) (n : Fin 131072)
    (k st : Fin 2) (o : ℕ) (ho : o + 256 ≤ 1024) (hk : o = k.val * 512 + st.val * 256) :
    quarter (shapeCast S131072x1024 X h1) o ho n = fun c => X (ix4 n k st c) := by
  funext c
  unfold quarter
  refine shapeCast_apply X h1 _ _ ?_
  rw [Shape.rowMajor_val_four, Shape.rowMajor_val_two]
  show ((n.val * 2 + k.val) * 2 + st.val) * 256 + c.val = n.val * 1024 + (o + c.val)
  subst hk
  have := k.isLt; have := st.isLt; omega

/-- The [131072, 512] result array over the flattened child rows, read as [131072, 2, 256], is the forest. -/
theorem forest_eq (X : S131072x2x2x256.Idx → EReal) (W : S256x768.Idx → EReal) (b : S768.Idx → EReal)
    (Wf : S256x256.Idx → EReal) (bf γ β : S256.Idx → EReal) (h1 : S131072x2x2x256.ShapeCasts S131072x1024)
    (h2 : S131072x512.ShapeCasts S131072x2x256) :
    shapeCast S131072x2x256 (arrayOut (shapeCast S131072x1024 X h1) W b Wf bf γ β) h2 = forest X W b Wf bf γ β := by
  funext i
  obtain ⟨n, s, e, rfl⟩ : ∃ (n : Fin 131072) (s : Fin 2) (e : Fin 256), i = ix3 n s e := ⟨i 0, i 1, i 2, eq_ix3 i⟩
  have hcol : s.val * 256 + e.val < 512 := by have := s.isLt; have := e.isLt; omega
  refine (shapeCast_apply _ h2 (ix3 n s e) (ix2 n ⟨s.val * 256 + e.val, hcol⟩) ?_).trans ?_
  · rw [Shape.rowMajor_val_two, Shape.rowMajor_val_three]
    show n.val * 512 + (s.val * 256 + e.val) = (n.val * 2 + s.val) * 256 + e.val
    omega
  · have hs : half ⟨s.val * 256 + e.val, hcol⟩ = s :=
      Fin.ext (by show (s.val * 256 + e.val) / 256 = s.val; have := e.isLt; omega)
    have he : within ⟨s.val * 256 + e.val, hcol⟩ = e :=
      Fin.ext (by show (s.val * 256 + e.val) % 256 = e.val; have := e.isLt; omega)
    show rowsNode (shapeCast S131072x1024 X h1) W b Wf bf γ β n (half ⟨s.val * 256 + e.val, hcol⟩)
        (within ⟨s.val * 256 + e.val, hcol⟩) = forest X W b Wf bf γ β (ix3 n s e)
    rw [hs, he]
    unfold rowsNode forest
    rw [quarter_cast X h1 n 0 0 0 _ rfl, quarter_cast X h1 n 0 1 256 _ rfl, quarter_cast X h1 n 1 0 512 _ rfl,
      quarter_cast X h1 n 1 1 768 _ rfl]

/-- The program's result buffer after the run, as a function of the arguments. -/
theorem result_eq (c : Dev nD) :
    (Pipeline.afterTail₀ cfgs (dats m) 0 (V0 m) [hostOps1] c main_v4 : S131072x2x256.Idx → EReal)
      = forest (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_eq, V_v2, V_v0, V_v1, V_main_arg2, V_main_arg4, V_main_arg5, V_main_arg6]
  exact forest_eq _ _ _ _ _ _ _ _ _

/-- THE RUN: every weakly fair execution terminates with the result buffer at the forest of the arguments, the
    arguments unchanged. -/
theorem run : θ_run defs (onTc (τ := τ) (main (F := Ideal))) ⟨m, fun _ => 0, ρ⟩ (fun r => ∀ c : Dev nD,
      r.2.mem ((c.tc : Thread nD τ).loc main_v4)
        = forest (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v4 (Pipeline.mem_restRefs_of main_v4 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelBlock

end
-- ==== Proof.RefRows.lean ====
/-
  The reference program's result, entry by entry.

  The reference works on whole arrays: it cuts the hidden and the cell states of the children out of the argument,
  sums the hidden states over the two children, multiplies by the gates' weights and adds the bias, forms the logistic
  function as 1 / (1 + exp (-x)), forms both children's forget gates at once by one product over a [131072, 2, 256]
  array, sums forget gate times cell state over the two children from zero, normalises each row, and joins the hidden
  and the normalised cell state along a new middle axis. Read at an entry (n, s, e) each stage depends on node n's
  four child rows alone, and is the matching piece of the tree cell (Cell.lean); the whole result is the forest.
-/
import proofs.«122136_j84791244357740_2_alg».proof.Proof.Gen.ReferenceIdeal.Read
import proofs.«122136_j84791244357740_2_alg».proof.Proof.Cell
import Idealize.ShloMosaic.Lib.IdealHost

noncomputable section

open scoped BigOperators

namespace Cert.RefRows

open Idealize.ShloMosaic Idealize.ShloMosaic.ValueIdx Cert.ReferenceIdeal Cert.ReferenceIdeal.Gen Cert.ReferenceIdeal.Read
open Cert.TreeCell

variable (x0 : (⟨S131072x2x2x256, .f32⟩ : BufTy).Contents (Elt Ideal)) (x1 : (⟨S256x768, .f32⟩ : BufTy).Contents (Elt Ideal))
  (x2 : (⟨S768, .f32⟩ : BufTy).Contents (Elt Ideal)) (x3 : (⟨S256x256, .f32⟩ : BufTy).Contents (Elt Ideal))
  (x4 x5 x6 : (⟨S256, .f32⟩ : BufTy).Contents (Elt Ideal))

/-- Child k's hidden row of node n, -/
abbrev hrow (n : Fin 131072) (k : Fin 2) : Fin 256 → EReal := fun c => x0 (ix4 n k (0 : Fin 2) c)
/-- and its cell row. -/
abbrev crow (n : Fin 131072) (k : Fin 2) : Fin 256 → EReal := fun c => x0 (ix4 n k (1 : Fin 2) c)

/-- The children's hidden states cut out of the argument. -/
theorem hidden_cut (n : Fin 131072) (k : Fin 2) (c : Fin 256) :
    val_main_v1 (F := Ideal) x0 (ix3 n k c) = x0 (ix4 n k (0 : Fin 2) c) := by
  rw [val_main_v1_apply, val_main_v0_apply]
  refine congrArg x0 (funext fun a => Fin.ext ?_)
  have := k.isLt; have := c.isLt
  match a with
  | ⟨0, _⟩ => show ((n.val * 2 + k.val) * 256 + c.val) / 512 = n.val; omega
  | ⟨1, _⟩ => show ((n.val * 2 + k.val) * 256 + c.val) / 256 % 2 = k.val; omega
  | ⟨2, _⟩ => rfl
  | ⟨3, _⟩ => show ((n.val * 2 + k.val) * 256 + c.val) % 256 = c.val; omega

/-- The children's cell states cut out of the argument. -/
theorem cell_cut (n : Fin 131072) (k : Fin 2) (c : Fin 256) :
    val_main_v3 (F := Ideal) x0 (ix3 n k c) = x0 (ix4 n k (1 : Fin 2) c) := by
  rw [val_main_v3_apply, val_main_v2_apply]
  refine congrArg x0 (funext fun a => Fin.ext ?_)
  have := k.isLt; have := c.isLt
  match a with
  | ⟨0, _⟩ => show ((n.val * 2 + k.val) * 256 + c.val) / 512 = n.val; omega
  | ⟨1, _⟩ => show ((n.val * 2 + k.val) * 256 + c.val) / 256 % 2 = k.val; omega
  | ⟨2, _⟩ => rfl
  | ⟨3, _⟩ => show ((n.val * 2 + k.val) * 256 + c.val) % 256 = c.val; omega

/-- The hidden states summed over the two children, from zero. -/
theorem hidden_sum (n : Fin 131072) (c : Fin 256) :
    val_main_v4 (F := Ideal) x0 (ix2 n c) = hrow x0 n 0 c + hrow x0 n 1 c := by
  rw [val_main_v4_apply]
  have hi : ∀ k : Fin 2, idx_main_v4 (ix2 n c) k = ix3 n k c := fun k =>
    funext fun a => Fin.ext (by match a with | ⟨0, _⟩ => rfl | ⟨1, _⟩ => rfl | ⟨2, _⟩ => rfl)
  rw [val_main_cst_apply, Ideal.ofBits_def, Ideal.ofBits_zero_f32, zero_add, Fin.sum_univ_two, hi, hi, hidden_cut, hidden_cut]

/-- The gates' pre-activations. -/
theorem gates (n : Fin 131072) (j : Fin 768) :
    val_main_v8 (F := Ideal) x0 x1 x2 (ix2 n j)
      = gate (hrow x0 n 0) (hrow x0 n 1) (fun c j => x1 (ix2 c j)) (fun j => x2 (ix1 j)) j := by
  rw [val_main_v8_apply, val_main_v5_apply, val_main_v7_apply, val_main_v6_apply]
  unfold gate
  refine congrArg₂ (· + ·) (Finset.sum_congr rfl fun c _ => ?_) ?_
  · have hl : lidx_main_v5 (ix2 n j) c = ix2 n c :=
      funext fun a => Fin.ext (by match a with | ⟨0, _⟩ => rfl | ⟨1, _⟩ => rfl)
    have hr : ridx_main_v5 (ix2 n j) c = ix2 c j :=
      funext fun a => Fin.ext (by match a with | ⟨0, _⟩ => rfl | ⟨1, _⟩ => rfl)
    rw [hl, hr, hidden_sum]
  · exact congrArg x2 (funext fun a => Fin.ext (by match a with | ⟨0, _⟩ => rfl))

/-- The logistic function spelt as one over one plus the exponential of the negation. -/
theorem logistic_form (x : EReal) :
    FloatOps.hostDivf (F := Ideal) (FloatOps.ofBits (F := Ideal) .f32 0x3F800000#32)
        (FloatOps.addf (FloatOps.ofBits (F := Ideal) .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = _
  rw [Ideal.ofBits_one_f32]
  rfl

/-- The input gate. -/
theorem inGate (n : Fin 131072) (e : Fin 256) :
    val_main_v17 (F := Ideal) x0 x1 x2 (ix2 n e)
      = Ideal.logistic (gate (hrow x0 n 0) (hrow x0 n 1) (fun c j => x1 (ix2 c j)) (fun j => x2 (ix1 j)) (col0 e)) := by
  have hi : idx_main_v9 (ix2 n e) = ix2 n (col0 e) :=
    funext fun a => Fin.ext (by match a with | ⟨0, _⟩ => rfl | ⟨1, _⟩ => exact (Nat.zero_add _).symm)
  rw [val_main_v17_apply, val_main_v16_apply, val_main_cst_1_apply, val_main_v15_apply, val_main_v14_apply,
    val_main_cst_0_apply, val_main_v13_apply, val_main_v12_apply, val_main_v9_apply, hi, gates, logistic_form]

/-- The output gate. -/
theorem outGate (n : Fin 131072) (e : Fin 256) :
    val_main_v23 (F := Ideal) x0 x1 x2 (ix2 n e)
      = Ideal.logistic (gate (hrow x0 n 0) (hrow x0 n 1) (fun c j => x1 (ix2 c j)) (fun j => x2 (ix1 j)) (col1 e)) := by
  have hi : idx_main_v10 (ix2 n e) = ix2 n (col1 e) :=
    funext fun a => Fin.ext (by match a with | ⟨0, _⟩ => rfl | ⟨1, _⟩ => rfl)
  rw [val_main_v23_apply, val_main_v22_apply, val_main_cst_3_apply, val_main_v21_apply, val_main_v20_apply,
    val_main_cst_2_apply, val_main_v19_apply, val_main_v18_apply, val_main_v10_apply, hi, gates, logistic_form]

/-- The update. -/
theorem update (n : Fin 131072) (e : Fin 256) :
    val_main_v24 (F := Ideal) x0 x1 x2 (ix2 n e)
      = Ideal.tanh (gate (hrow x0 n 0) (hrow x0 n 1) (fun c j => x1 (ix2 c j)) (fun j => x2 (ix1 j)) (col2 e)) := by
  have hi : idx_main_v11 (ix2 n e) = ix2 n (col2 e) :=
    funext fun a => Fin.ext (by match a with | ⟨0, _⟩ => rfl | ⟨1, _⟩ => rfl)
  rw [val_main_v24_apply, val_main_v11_apply, hi, gates]
  rfl

/-- Both children's forget gates. -/
theorem forgetGate (n : Fin 131072) (k : Fin 2) (e : Fin 256) :
    val_main_v34 (F := Ideal) x0 x3 x4 (ix3 n k e)
      = forget (hrow x0 n k) (fun c e => x3 (ix2 c e)) (fun e => x4 (ix1 e)) e := by
  rw [val_main_v34_apply, val_main_v33_apply, val_main_cst_5_apply, val_main_v32_apply, val_main_v31_apply,
    val_main_cst_4_apply, val_main_v30_apply, val_main_v29_apply, logistic_form, val_main_v28_apply, val_main_v25_apply,
    val_main_v27_apply, val_main_v26_apply]
  unfold forget
  refine congrArg Ideal.logistic (congrArg₂ (· + ·) (Finset.sum_congr rfl fun c _ => ?_) ?_)
  · have hl : lidx_main_v25 (ix3 n k e) c = ix3 n k c :=
      funext fun a => Fin.ext (by match a with | ⟨0, _⟩ => rfl | ⟨1, _⟩ => rfl | ⟨2, _⟩ => rfl)
    have hr : ridx_main_v25 (ix3 n k e) c = ix2 c e :=
      funext fun a => Fin.ext (by match a with | ⟨0, _⟩ => rfl | ⟨1, _⟩ => rfl)
    rw [hl, hr, hidden_cut]
  · exact congrArg x4 (funext fun a => Fin.ext (by match a with | ⟨0, _⟩ => rfl))

/-- The new cell state before normalisation. -/
theorem cellSum_eq (n : Fin 131072) (e : Fin 256) :
    val_main_v38 (F := Ideal) x0 x1 x2 x3 x4 (ix2 n e)
      = cellSum (gate (hrow x0 n 0) (hrow x0 n 1) (fun c j => x1 (ix2 c j)) (fun j => x2 (ix1 j)))
          (forget (hrow x0 n 0) (fun c e => x3 (ix2 c e)) (fun e => x4 (ix1 e)))
          (forget (hrow x0 n 1) (fun c e => x3 (ix2 c e)) (fun e => x4 (ix1 e))) (crow x0 n 0) (crow x0 n 1) e := by
  have hi : ∀ k : Fin 2, idx_main_v37 (ix2 n e) k = ix3 n k e := fun k =>
    funext fun a => Fin.ext (by match a with | ⟨0, _⟩ => rfl | ⟨1, _⟩ => rfl | ⟨2, _⟩ => rfl)
  rw [val_main_v38_apply, val_main_v35_apply, inGate, update, val_main_v37_apply, val_main_cst_6_apply, Ideal.ofBits_def,
    Ideal.ofBits_zero_f32, zero_add, Fin.sum_univ_two, hi, hi, val_main_v36_apply, val_main_v36_apply, forgetGate, forgetGate,
    cell_cut, cell_cut]
  unfold cellSum
  exact (add_assoc _ _ _).symm

/-- Node n's cell sum as a row. -/
abbrev zrow (n : Fin 131072) : Fin 256 → EReal := fun k => val_main_v38 (F := Ideal) x0 x1 x2 x3 x4 (ix2 n k)

/-- The row's mean, kept as a column. -/
theorem rowMean (n : Fin 131072) :
    val_main_v42 (F := Ideal) x0 x1 x2 x3 x4 (ix2 n (0 : Fin 1)) = mean (zrow x0 x1 x2 x3 x4 n) := by
  have hi : idx_main_v40 (ix2 n (0 : Fin 1)) = ix1 n := funext fun a => Fin.ext (by match a with | ⟨0, _⟩ => rfl)
  have hk : ∀ k : Fin 256, idx_main_v39 (ix1 n) k = ix2 n k := fun k =>
    funext fun a => Fin.ext (by match a with | ⟨0, _⟩ => rfl | ⟨1, _⟩ => rfl)
  rw [val_main_v42_apply, val_main_v40_apply, hi, val_main_v39_apply, val_main_v41_apply, val_main_cst_8_apply,
    val_main_cst_7_apply, Ideal.ofBits_def, Ideal.ofBits_zero_f32, zero_add]
  exact congrArg (fun s => Ideal.div s (Ideal.ofBits .f32 0x43800000#32)) (Finset.sum_congr rfl fun k _ => by rw [hk])

/-- The row minus its mean (the reference forms it twice). -/
theorem centred (n : Fin 131072) (k : Fin 256) :
    val_main_v44 (F := Ideal) x0 x1 x2 x3 x4 (ix2 n k) = zrow x0 x1 x2 x3 x4 n k - mean (zrow x0 x1 x2 x3 x4 n) := by
  have hi : idx_main_v43 (ix2 n k) = ix2 n (0 : Fin 1) :=
    funext fun a => Fin.ext (by match a with | ⟨0, _⟩ => rfl | ⟨1, _⟩ => rfl)
  rw [val_main_v44_apply, val_main_v43_apply, hi, rowMean]
  rfl

theorem centred' (n : Fin 131072) (k : Fin 256) :
    val_main_v51 (F := Ideal) x0 x1 x2 x3 x4 (ix2 n k) = zrow x0 x1 x2 x3 x4 n k - mean (zrow x0 x1 x2 x3 x4 n) := by
  have hi : idx_main_v50 (ix2 n k) = ix2 n (0 : Fin 1) :=
    funext fun a => Fin.ext (by match a with | ⟨0, _⟩ => rfl | ⟨1, _⟩ => rfl)
  rw [val_main_v51_apply, val_main_v50_apply, hi, rowMean]
  rfl

/-- The row's variance, kept as a column. -/
theorem rowVar (n : Fin 131072) :
    val_main_v49 (F := Ideal) x0 x1 x2 x3 x4 (ix2 n (0 : Fin 1))
      = mean (fun k => (zrow x0 x1 x2 x3 x4 n k - mean (zrow x0 x1 x2 x3 x4 n))
          * (zrow x0 x1 x2 x3 x4 n k - mean (zrow x0 x1 x2 x3 x4 n))) := by
  have hi : idx_main_v47 (ix2 n (0 : Fin 1)) = ix1 n := funext fun a => Fin.ext (by match a with | ⟨0, _⟩ => rfl)
  have hk : ∀ k : Fin 256, idx_main_v46 (ix1 n) k = ix2 n k := fun k =>
    funext fun a => Fin.ext (by match a with | ⟨0, _⟩ => rfl | ⟨1, _⟩ => rfl)
  rw [val_main_v49_apply, val_main_v47_apply, hi, val_main_v46_apply, val_main_v48_apply, val_main_cst_10_apply,
    val_main_cst_9_apply, Ideal.ofBits_def, Ideal.ofBits_zero_f32, zero_add]
  refine congrArg (fun s => Ideal.div s (Ideal.ofBits .f32 0x43800000#32)) (Finset.sum_congr rfl fun k _ => ?_)
  rw [hk, val_main_v45_apply, centred]
  rfl

/-- The normalised cell state. -/
theorem normed_eq (n : Fin 131072) (e : Fin 256) :
    val_main_v62 (F := Ideal) x0 x1 x2 x3 x4 x5 x6 (ix2 n e)
      = normed (zrow x0 x1 x2 x3 x4 n) (fun e => x5 (ix1 e)) (fun e => x6 (ix1 e)) e := by
  have hi : idx_main_v55 (ix2 n e) = ix2 n (0 : Fin 1) :=
    funext fun a => Fin.ext (by match a with | ⟨0, _⟩ => rfl | ⟨1, _⟩ => rfl)
  have h5 : idx_main_v57 (idx_main_v58 (ix2 n e)) = ix1 e := funext fun a => Fin.ext (by match a with | ⟨0, _⟩ => rfl)
  have h6 : idx_main_v60 (idx_main_v61 (ix2 n e)) = ix1 e := funext fun a => Fin.ext (by match a with | ⟨0, _⟩ => rfl)
  rw [val_main_v62_apply, val_main_v59_apply, val_main_v56_apply, centred', val_main_v55_apply, hi, val_main_v54_apply,
    val_main_v53_apply, rowVar, val_main_v52_apply, val_main_cst_11_apply, val_main_v58_apply, val_main_v57_apply, h5,
    val_main_v61_apply, val_main_v60_apply, h6]
  rfl

/-- The normalised cell state is the tree cell's. -/
theorem cellState_eq (n : Fin 131072) (e : Fin 256) :
    val_main_v62 (F := Ideal) x0 x1 x2 x3 x4 x5 x6 (ix2 n e)
      = cellState (hrow x0 n 0) (crow x0 n 0) (hrow x0 n 1) (crow x0 n 1) (fun c j => x1 (ix2 c j)) (fun j => x2 (ix1 j))
          (fun c e => x3 (ix2 c e)) (fun e => x4 (ix1 e)) (fun e => x5 (ix1 e)) (fun e => x6 (ix1 e)) e := by
  rw [normed_eq]
  unfold cellState
  exact congrArg (fun z => normed z (fun e => x5 (ix1 e)) (fun e => x6 (ix1 e)) e)
    (funext fun k => cellSum_eq x0 x1 x2 x3 x4 n k)

/-- The hidden state is the tree cell's. -/
theorem hidden_eq (n : Fin 131072) (e : Fin 256) :
    val_main_v64 (F := Ideal) x0 x1 x2 x3 x4 x5 x6 (ix2 n e)
      = hidden (hrow x0 n 0) (crow x0 n 0) (hrow x0 n 1) (crow x0 n 1) (fun c j => x1 (ix2 c j)) (fun j => x2 (ix1 j))
          (fun c e => x3 (ix2 c e)) (fun e => x4 (ix1 e)) (fun e => x5 (ix1 e)) (fun e => x6 (ix1 e)) e := by
  rw [val_main_v64_apply, outGate, val_main_v63_apply, cellState_eq]
  rfl

/-- THE REFERENCE'S RESULT is the forest: the hidden state and the normalised cell state joined along the middle axis. -/
theorem result_eq : val_main_v67 (F := Ideal) x0 x1 x2 x3 x4 x5 x6 = forest x0 x1 x2 x3 x4 x5 x6 := by
  funext i
  obtain ⟨n, s, e, rfl⟩ : ∃ (n : Fin 131072) (s : Fin 2) (e : Fin 256), i = ix3 n s e := ⟨i 0, i 1, i 2, eq_ix3 i⟩
  have hidx : ∀ (u : Fin 1), idx_main_v65 (ix3 n u e) = ix2 n e := fun u =>
    funext fun a => Fin.ext (by match a with | ⟨0, _⟩ => rfl | ⟨1, _⟩ => rfl)
  have hidx' : ∀ (u : Fin 1), idx_main_v66 (ix3 n u e) = ix2 n e := fun u =>
    funext fun a => Fin.ext (by match a with | ⟨0, _⟩ => rfl | ⟨1, _⟩ => rfl)
  show _ = node (hrow x0 n 0) (crow x0 n 0) (hrow x0 n 1) (crow x0 n 1) (fun c j => x1 (ix2 c j)) (fun j => x2 (ix1 j))
      (fun c e => x3 (ix2 c e)) (fun e => x4 (ix1 e)) (fun e => x5 (ix1 e)) (fun e => x6 (ix1 e)) s e
  unfold val_main_v67 node
  by_cases hs : s.val = 0
  · rw [if_pos hs]
    refine (concatenate_pair_apply_left (s₁ := S131072x1x256) (s₂ := S131072x1x256) (1 : Fin 3) _ _ _ (ix3 n s e) rfl (ix3 n (0 : Fin 1) e) (fun b => ?_)).trans ?_
    · match b with
      | ⟨0, _⟩ => rfl
      | ⟨1, _⟩ => exact hs.symm
      | ⟨2, _⟩ => rfl
    · rw [val_main_v65_apply, hidx, hidden_eq]
  · rw [if_neg hs]
    have hs1 : s.val = 1 := by have := s.isLt; omega
    refine (concatenate_pair_apply_right (s₁ := S131072x1x256) (s₂ := S131072x1x256) (1 : Fin 3) _ _ _ (ix3 n s e) rfl rfl (ix3 n (0 : Fin 1) e) (fun b hb => ?_) ?_).trans ?_
    · match b with
      | ⟨0, _⟩ => rfl
      | ⟨1, _⟩ => exact absurd rfl hb
      | ⟨2, _⟩ => rfl
    · show 0 + 1 = s.val
      omega
    · rw [val_main_v66_apply, hidx', cellState_eq]

end Cert.RefRows

end
-- ==== Proof.lean ====
/-
  A child-sum tree LSTM cell with two children per node, followed by a layer normalisation of the new cell state, over
  131072 nodes: the kernel computes, on the extended reals, the same array as the reference.

  Both programs compute the forest of Proof/Cell.lean: for node n with children's hidden rows h0, h1 and cell rows
  c0, c1, the gates g = (h0 + h1) W + b, the forget gates sigma (h_k Wf + bf), the cell sum
  sigma (g_i) tanh (g_u) + f0 c0 + f1 c1, its normalisation along the row, and the hidden state sigma (g_o) tanh of it.
  The kernel (Proof/KernelRows.lean, Proof/KernelBlock.lean) works on blocks of 1024 nodes whose four child rows lie side
  by side in one row of 1024 columns, writes hidden and cell state side by side in one row of 512 columns, and the
  program reshapes before and after; the reference (Proof/RefRows.lean) works on whole arrays, sums over the children
  from zero, spells the logistic function as 1 / (1 + exp (-x)) and joins the two results along a new axis. The two
  differ by the grouping of a three-term sum and by zeros added, which the extended reals do not notice: no finiteness
  of the inputs is used.
-/
import proofs.«122136_j84791244357740_2_alg».proof.Defs
import proofs.«122136_j84791244357740_2_alg».proof.Proof.Gen.Kernel
import proofs.«122136_j84791244357740_2_alg».proof.Proof.Gen.Kernel.Skeleton
import proofs.«122136_j84791244357740_2_alg».proof.Proof.Gen.Kernel.Launch
import proofs.«122136_j84791244357740_2_alg».proof.Proof.Gen.Kernel.Points
import proofs.«122136_j84791244357740_2_alg».proof.Proof.Gen.Kernel.Frame
import proofs.«122136_j84791244357740_2_alg».proof.Proof.Gen.KernelIdeal
import proofs.«122136_j84791244357740_2_alg».proof.Proof.Gen.KernelIdeal.Skeleton
import proofs.«122136_j84791244357740_2_alg».proof.Proof.Gen.KernelIdeal.Launch
import proofs.«122136_j84791244357740_2_alg».proof.Proof.Gen.KernelIdeal.Points
import proofs.«122136_j84791244357740_2_alg».proof.Proof.Gen.KernelIdeal.Frame
import proofs.«122136_j84791244357740_2_alg».proof.Proof.Gen.ReferenceIdeal
import proofs.«122136_j84791244357740_2_alg».proof.Proof.Gen.ReferenceIdeal.Run
import proofs.«122136_j84791244357740_2_alg».proof.Proof.Gen.ReferenceIdeal.Read
import proofs.«122136_j84791244357740_2_alg».proof.Proof.Gen.Pre_finite_inputs
import proofs.«122136_j84791244357740_2_alg».proof.Proof.KernelBlock
import proofs.«122136_j84791244357740_2_alg».proof.Proof.RefRows
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote nothing. -/
theorem preserves : Cert.preserves_Kernel_KernelIdeal := trivial

/-- From memories that agree on the arguments both programs end with the forest of those arguments in their result
    buffers. -/
theorem algebraic : Cert.algebraic_KernelIdeal_ReferenceIdeal := by
  intro m ρ m' ρ' _ hagree
  refine ⟨_, Cert.KernelBlock.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.RefRows.result_eq, (hagree c).1, (hagree c).2.1, (hagree c).2.2.1,
    (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
